-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_64000000" .f32 0x328637BD#32 ((1 / 64000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S4000000 : Shape := ⟨1, ![4000000]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel

variable [Facts]

def fn {F : FTy → Type} [FloatOps F] (main_arg0 : FVec F S4000000x16 .f32) (main_arg1 : IVec S4000000 32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  main_v3
-- ==== Kernel.lean ====
abbrev S4000000x16 : Shape := ⟨2, ![4000000, 16]⟩
abbrev S4000000 : Shape := ⟨1, ![4000000]⟩
abbrev S1x1 : Shape := ⟨2, ![1, 1]⟩
abbrev S8000x16 : Shape := ⟨2, ![8000, 16]⟩
abbrev S8000 : Shape := ⟨1, ![8000]⟩
abbrev S8000x1 : Shape := ⟨2, ![8000, 1]⟩
abbrev S1 : Shape := ⟨1, ![1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8000x16, .f32⟩
  | .local _ .vmem, ⟨1, _⟩ => ⟨S8000x16, .f32⟩
  | .local _ .vmem, ⟨2, _⟩ => ⟨S1x1, .f32⟩
  | .local _ .vmem, ⟨3, _⟩ => ⟨S1x1, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x16_S8000x16_0_0 : ∀ a, (![0, 0] : Fin 2 → Nat) a + S8000x16.size a ≤ S8000x16.size a
  h_S8000x16 : 0 < S8000x16.numel
  reduces_S8000x16_S8000 : S8000x16.Reduces [1] S8000
  shapeCasts_S8000_S8000x1 : S8000.ShapeCasts S8000x1
  broadcasts_S8000x1_S8000x16 : S8000x1.Broadcasts S8000x16
  reduces_S8000x1_S1 : S8000x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S4000000x16.size a
  hwx0_0 : ∀ i : grid0.Coords, EltTy.bits .f32 = 32 ∨ (Rect.block (s := S4000000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4000000 : Shape := ⟨1, ![4000000]⟩
abbrev S_ : Shape := ⟨0, ![]⟩
abbrev S4000000x1 : Shape := ⟨2, ![4000000, 1]⟩

abbrev nBuf : Space → Nat
  | .hbm => 17
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4000000, .i32⟩
  | .hbm, ⟨2, _⟩ => ⟨S4000000x16, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x16, .f32⟩
  | .hbm, ⟨8, _⟩ => ⟨S4000000x16, .f32⟩
  | .hbm, ⟨9, _⟩ => ⟨S4000000x16, .f32⟩
  | .hbm, ⟨10, _⟩ => ⟨S4000000x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  reducesTo_S4000000x16_S4000000_d1 : S4000000x16.ReducesTo [1] S4000000
  h_S_ : 0 < S_.numel
  bcast_S4000000_S4000000x1_0 : S4000000.BroadcastsInDim S4000000x1 (![0] : Fin 1 → Fin S4000000x1.rank)
  bcast_S4000000x1_S4000000x16_0_1 : S4000000x1.BroadcastsInDim S4000000x16 (![0, 1] : Fin 2 → Fin S4000000x16.rank)
  reducesTo_S4000000x16_S_d0_1 : S4000000x16.ReducesTo [0, 1] S_

variable [Facts₀]

class Facts : Prop extends Facts₀ where

variable [Facts]
-- ==== Proof.Spec.lean ====
/-
  The loss as ONE function of the matrix, on the extended reals.

  For a matrix `y` of rows of 16 entries, row `r` has squared length `‖y_r‖² = ∑ₖ y(r,k)²`; its projection onto the unit
  sphere is `y_r / ‖y_r‖`, and the squared distance between the projection and the row is
  `rowLoss y r = ∑_d (y(r,d) / √‖y_r‖² − y(r,d))²`. The loss is the mean of these squared entries over the
  4,000,000 × 16 = 64,000,000 entries: `(∑ᵣ rowLoss y r) · (1/64000000)`, times the weight `1.0` both programs carry.

  One program sums the rows 8000 at a time, block after block, into a running sum; the other sums every entry at once
  and divides by 64,000,000. Addition on the extended reals is commutative and associative, so the two groupings are one
  sum (`upTo_zero`, `upTo_succ`, `upTo_last`: the running sum after block `n` is the sum over the first `8000 (n + 1)`
  rows, and after the last block the sum over all of them), and dividing an extended real by the real 64,000,000 is
  multiplying it by the real 1/64,000,000 (`loss_of_quotient`). Nothing here needs the entries to be finite.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Loss

/-- A matrix of `n` rows of 16 extended reals. -/
abbrev Mat (n : ℕ) : Type := (⟨2, ![n, 16]⟩ : Shape).Idx → EReal

section Rows
variable {n : ℕ}

/-- The squared length of row `r`: `∑ₖ y(r,k)²`. -/
def rowSq (y : Mat n) (r : Fin n) : EReal := ∑ k : Fin 16, y (ix2 r k) * y (ix2 r k)

/-- Entry `(r, d)` of the row's projection onto the unit sphere minus the row: `y(r,d) / √‖y_r‖² − y(r,d)`. -/
def dev (y : Mat n) (r : Fin n) (d : Fin 16) : EReal :=
  Ideal.div (y (ix2 r d)) (Ideal.sqrt (rowSq y r)) - y (ix2 r d)

/-- The squared distance between row `r` and its projection. -/
def rowLoss (y : Mat n) (r : Fin n) : EReal := ∑ d : Fin 16, dev y r d * dev y r d

end Rows

/-- Row `r`'s squared distance for any natural `r`: zero past the last row. -/
def rowTerm (y : Mat 4000000) (r : ℕ) : EReal := if h : r < 4000000 then rowLoss y ⟨r, h⟩ else 0

/-- The squared distances of the first `8000 (n + 1)` rows, summed: blocks `0 … n` of 8000 rows each. -/
def upTo (y : Mat 4000000) (n : ℕ) : EReal := ∑ r ∈ Finset.range (8000 * (n + 1)), rowTerm y r

/-- The squared distances of all rows, summed. -/
def total (y : Mat 4000000) : EReal := ∑ r : Fin 4000000, rowLoss y r

/-- The squared distances of a block of 8000 rows, summed. -/
def blockSum (x : Mat 8000) : EReal := ∑ q : Fin 8000, rowLoss x q

/-- The loss: the mean over the 64,000,000 entries, times the weight `1.0` (kept as its word: both programs carry it). -/
def loss (y : Mat 4000000) : EReal :=
  total y * ((1 / 64000000 : ℝ) : EReal) * Ideal.ofBits .f32 0x3F800000#32

/-! ## The sum block by block is the sum -/

/-- After the first block: its 8000 rows. -/
theorem upTo_zero (y : Mat 4000000) : upTo y 0 = ∑ q : Fin 8000, rowTerm y (8000 * 0 + q.val) := by
  unfold upTo
  rw [show 8000 * (0 + 1) = 8000 from rfl, Finset.sum_range]
  exact Finset.sum_congr rfl fun q _ => by rw [Nat.mul_zero, Nat.zero_add]

/-- One more block adds its 8000 rows. -/
theorem upTo_succ (y : Mat 4000000) (n : ℕ) :
    upTo y (n + 1) = upTo y n + ∑ q : Fin 8000, rowTerm y (8000 * (n + 1) + q.val) := by
  unfold upTo
  rw [show 8000 * (n + 1 + 1) = 8000 * (n + 1) + 8000 from by ring, Finset.sum_range_add]
  exact congrArg (_ + ·) (Finset.sum_range fun x => rowTerm y (8000 * (n + 1) + x))

/-- After the last of the 500 blocks: every row. -/
theorem upTo_last (y : Mat 4000000) : upTo y 499 = total y := by
  unfold upTo total
  rw [show 8000 * (499 + 1) = 4000000 from rfl, Finset.sum_range]
  exact Finset.sum_congr rfl fun r _ => dif_pos r.isLt

/-- A block of 8000 rows that reads `y` at rows `8000 t + q` has those rows' squared distances. -/
theorem rowLoss_block (y : Mat 4000000) (x : Mat 8000) (t : ℕ) (ht : t < 500)
    (hx : ∀ (q : Fin 8000) (d : Fin 16), x (ix2 q d) = y (ix2 ⟨8000 * t + q.val, by have := q.isLt; omega⟩ d))
    (q : Fin 8000) : rowLoss x q = rowTerm y (8000 * t + q.val) := by
  have hq : 8000 * t + q.val < 4000000 := by have := q.isLt; omega
  unfold rowTerm
  rw [dif_pos hq]
  unfold rowLoss dev rowSq
  simp only [hx]

/-- So the block's sum is the sum of those rows' terms. -/
theorem blockSum_block (y : Mat 4000000) (x : Mat 8000) (t : ℕ) (ht : t < 500)
    (hx : ∀ (q : Fin 8000) (d : Fin 16), x (ix2 q d) = y (ix2 ⟨8000 * t + q.val, by have := q.isLt; omega⟩ d)) :
    blockSum x = ∑ q : Fin 8000, rowTerm y (8000 * t + q.val) :=
  Finset.sum_congr rfl fun q _ => rowLoss_block y x t ht hx q

/-! ## The mean: a quotient by 64,000,000 is a product with 1/64,000,000 -/

/-- The word `0x4C742400` is the real 64,000,000. -/
theorem ofBits_64000000 : Ideal.ofBits .f32 0x4C742400#32 = ((64000000 : ℝ) : EReal) := by
  simp [Ideal.ofBits, Ideal.ieee, -EReal.coe_mul]; norm_num

/-- The other program's form of the loss: the weight times the quotient of zero-plus-the-total by 64,000,000. -/
theorem loss_of_quotient (y : Mat 4000000) :
    Ideal.ofBits .f32 0x3F800000#32
        * Ideal.div (Ideal.ofBits .f32 0x00000000#32 + total y) (Ideal.ofBits .f32 0x4C742400#32)
      = loss y := by
  rw [Ideal.ofBits_zero_f32, zero_add, ofBits_64000000, Ideal.div_coe (by norm_num : (64000000 : ℝ) ≠ 0), mul_comm]
  rfl

end Cert.Loss

end
-- ==== Proof.RefLoss.lean ====
/-
  The reference computes the loss (`Cert.Loss.loss`).

  Read one operation at a time, the reference takes each row's squared length `0 + ∑ₖ y(r,k)²`, its square root, the
  quotient `y(r,d) / √‖y_r‖²`, the difference with `y(r,d)` and its square; sums the squares over every index of the
  matrix from zero; divides by 64,000,000; and multiplies by the weight `1.0`. A sum over the indices of a matrix is the
  double sum over rows and columns, so the total is `Cert.Loss.total`, and the quotient is the product with 1/64,000,000.
-/
import proofs.«164021_j55817394979270_2_alg».proof.Proof.Gen.ReferenceIdeal.Read
import proofs.«164021_j55817394979270_2_alg».proof.Proof.Spec
import Idealize.ShloMosaic.Lib.ValueIdx
import Idealize.ShloMosaic.PureOps.Ideal.Laws

noncomputable section

open scoped BigOperators

namespace Cert.ReferenceIdeal.RefLoss

open Cert.ReferenceIdeal Cert.ReferenceIdeal.Read Idealize.ShloMosaic Idealize.ShloMosaic.ValueIdx

/-- The index the row sum reads at `(r)` and `k` is `(r, k)`. -/
theorem idx_row (r : Fin 4000000) (k : Fin 16) : idx_main_call0_v1 (ix1 r) k = ix2 r k :=
  funext fun a => Fin.ext (by match a with | ⟨0, _⟩ => rfl | ⟨1, _⟩ => rfl)

/-- The reference's squared row length (a sum from zero over the row) is `rowSq`. -/
theorem sq_apply (x0 : (⟨S4000000x16, .f32⟩ : BufTy).Contents (Elt Ideal)) (r : Fin 4000000) :
    val_main_call0_v1 (F := Ideal) x0 (ix1 r) = Cert.Loss.rowSq x0 r := by
  rw [val_main_call0_v1_apply]
  show Ideal.ofBits .f32 0x00000000#32
      + ∑ k : Fin 16, x0 (idx_main_call0_v1 (ix1 r) k) * x0 (idx_main_call0_v1 (ix1 r) k) = _
  rw [Ideal.ofBits_zero_f32, zero_add]
  exact Finset.sum_congr rfl fun k _ => by rw [idx_row]

/-- The squared difference at `(r, d)`: the keepdims column `(r, 0)` of the norms, broadcast along the row. -/
theorem sqdiff_apply (x0 : (⟨S4000000x16, .f32⟩ : BufTy).Contents (Elt Ideal)) (r : Fin 4000000) (d : Fin 16) :
    val_main_v4 (F := Ideal) x0 (ix2 r d) = Cert.Loss.dev x0 r d * Cert.Loss.dev x0 r d := by
  have e1 : idx_main_v1 (ix2 r d) = ix2 r (0 : Fin 1) :=
    funext fun a => Fin.ext (by match a with | ⟨0, _⟩ => rfl | ⟨1, _⟩ => rfl)
  have e2 : idx_main_call0_v2 (ix2 r (0 : Fin 1)) = ix1 r :=
    funext fun a => Fin.ext (by match a with | ⟨0, _⟩ => rfl)
  rw [val_main_v4_apply, val_main_v3_apply, val_main_v2_apply, val_main_v1_apply, e1, val_main_v0_apply,
    val_main_call0_v2_apply, e2, sq_apply]
  rfl

/-- The sum over every index of the matrix, from zero, is zero plus `total`. -/
theorem sum_apply (x0 : (⟨S4000000x16, .f32⟩ : BufTy).Contents (Elt Ideal)) (i : S_.Idx) :
    val_main_v5 (F := Ideal) x0 i = Ideal.ofBits .f32 0x00000000#32 + Cert.Loss.total x0 := by
  rw [val_main_v5_apply]
  refine congrArg (_ + ·) ((sum_idx2 fun j => val_main_v4 (F := Ideal) x0 j).trans ?_)
  exact Finset.sum_congr rfl fun r _ => Finset.sum_congr rfl fun d _ => sqdiff_apply x0 r d

/-- The reference's result is the loss of its argument. -/
theorem result_eq (x0 : (⟨S4000000x16, .f32⟩ : BufTy).Contents (Elt Ideal)) :
    val_main_v7 (F := Ideal) x0 = fun _ => Cert.Loss.loss x0 := by
  funext i
  rw [val_main_v7_apply, val_main_v6_apply, sum_apply]
  exact Cert.Loss.loss_of_quotient x0

end Cert.ReferenceIdeal.RefLoss

end
-- ==== Proof.Pieces.lean ====
/-
  What one grid point leaves behind, as values.

  The body keeps a running sum in a scratch cell carried from point to point. At the first point it stores zero into the
  cell and reads it back; at every point it adds the block's sum of squared distances to the cell (`k0_pay2` of the block
  and of what the cell held), stores the new sum, reads it back and stores it, scaled (`k0_pay3`), into the output cell.
  Every load and store goes through the whole one-element cell, so a load after a store reads exactly the stored value.
  Hence, for any float instance:
    first point:  the cell ends at `k0_pay2 x k0_pay1` (zero, plus the block's sum), the output at `k0_pay3` of that;
    later points: the cell ends at `k0_pay2 x xs` for the contents `xs` the point before left, the output at `k0_pay3` of that.
-/
import proofs.«164021_j55817394979270_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F] [Named F]

/-- The zero offsets of a cell, as the constant function. -/
theorem hz : (![0, 0] : Fin 2 → Nat) = fun _ => 0 := funext fun a => by fin_cases a <;> rfl

/-- A load through the whole shape, after stores the LAST of which went through the whole shape, reads that store's
    value, whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- A LATER point: the scratch cell, holding `xs`, ends at `k0_pay2 x xs` for the input block `x`. -/
theorem sout_B (c : Dev nD) (i : grid0.Coords) (a1 : Memref sig .tc .vmem S8000x16 .f32) (h1 : a1.IsWhole)
    (a2 : Memref sig .tc .vmem S1x1 .f32) (h2 : a2.IsWhole) (a3 : Memref sig .tc .vmem S1x1 .f32) (h3 : a3.IsWhole)
    (hc : ¬cond0_0 i) (x : Vec F S8000x16 .f32) (xs : Vec F S1x1 .f32) :
    sout0_B_0 c i a1 h1 a2 h2 a3 h3 hc x xs = k0_pay2 x xs := by
  unfold sout0_B_0
  rw [View.read_writes_eq_canon _ _ _ (scover0_B_0 c i a1 h1 a2 h2 a3 h3 hc x xs)]
  unfold kernelRun0_B
  dsimp only
  sl_unfold_words
  rw [View.canon_unit_zero hz]
  simp only [View.readAt_eq_ld, h1.read_unread, h3.read_unread, View.ld_unit_zero (S := S8000x16) hz,
    View.ld_unit_zero (S := S1x1) hz]

/-- A LATER point: the output cell ends at `k0_pay3` of the new running sum. -/
theorem out_B (c : Dev nD) (i : grid0.Coords) (a1 : Memref sig .tc .vmem S8000x16 .f32) (h1 : a1.IsWhole)
    (a2 : Memref sig .tc .vmem S1x1 .f32) (h2 : a2.IsWhole) (a3 : Memref sig .tc .vmem S1x1 .f32) (h3 : a3.IsWhole)
    (hc : ¬cond0_0 i) (x : Vec F S8000x16 .f32) (xs : Vec F S1x1 .f32) :
    out0_B_1 c i a1 h1 a2 h2 a3 h3 hc x xs = k0_pay3 (k0_pay2 x xs) := by
  unfold out0_B_1
  rw [View.read_writes_eq_canon _ _ _ (cover0_B_1 c i a1 h1 a2 h2 a3 h3 hc x xs)]
  unfold kernelRun0_B
  dsimp only
  sl_unfold_words
  rw [View.canon_unit_zero (S := S1x1) hz, readCov_cons_whole (S := S1x1) _ hz]
  simp only [View.readAt_eq_ld, h1.read_unread, h3.read_unread, View.ld_unit_zero (S := S8000x16) hz,
    View.ld_unit_zero (S := S1x1) hz]

/-- The FIRST point: the scratch cell is zeroed (`k0_pay1`), read back, and ends at `k0_pay2 x k0_pay1`. -/
theorem sout_A (c : Dev nD) (i : grid0.Coords) (a1 : Memref sig .tc .vmem S8000x16 .f32) (h1 : a1.IsWhole)
    (a2 : Memref sig .tc .vmem S1x1 .f32) (h2 : a2.IsWhole) (a3 : Memref sig .tc .vmem S1x1 .f32) (h3 : a3.IsWhole)
    (hc : cond0_0 i) (x : Vec F S8000x16 .f32) :
    sout0_A_0 c i a1 h1 a2 h2 a3 h3 hc x = k0_pay2 x k0_pay1 := by
  unfold sout0_A_0
  rw [View.read_writes_eq_canon _ _ _ (scover0_A_0 c i a1 h1 a2 h2 a3 h3 hc x)]
  unfold kernelRun0_A
  dsimp only
  sl_unfold_words
  rw [View.canon_cons_unit_zero (S := S1x1) hz, readCov_cons_whole (S := S1x1) _ hz]
  simp only [View.readAt_eq_ld, h1.read_unread, View.ld_unit_zero (S := S8000x16) hz]

/-- The FIRST point: the output cell ends at `k0_pay3` of that. -/
theorem out_A (c : Dev nD) (i : grid0.Coords) (a1 : Memref sig .tc .vmem S8000x16 .f32) (h1 : a1.IsWhole)
    (a2 : Memref sig .tc .vmem S1x1 .f32) (h2 : a2.IsWhole) (a3 : Memref sig .tc .vmem S1x1 .f32) (h3 : a3.IsWhole)
    (hc : cond0_0 i) (x : Vec F S8000x16 .f32) :
    out0_A_1 c i a1 h1 a2 h2 a3 h3 hc x = k0_pay3 (k0_pay2 x k0_pay1) := by
  unfold out0_A_1
  rw [View.read_writes_eq_canon _ _ _ (cover0_A_1 c i a1 h1 a2 h2 a3 h3 hc x)]
  unfold kernelRun0_A
  dsimp only
  sl_unfold_words
  rw [View.canon_unit_zero (S := S1x1) hz, readCov_cons_whole (S := S1x1) _ hz, readCov_cons_whole (S := S1x1) _ hz]
  simp only [View.readAt_eq_ld, h1.read_unread, View.ld_unit_zero (S := S8000x16) hz]

end Cert.KernelIdeal.Acc

end
-- ==== Proof.Chain.lean ====
/-
  The running sum, point by point.

  The grid has 500 points; point `t` is handed rows `8000 t … 8000 t + 7999` of the matrix. After point `n` the scratch
  cell holds `sumAt n`: at the first point the block's sum added to the zero just stored, afterwards the block's sum
  added to what the point before left — and the output cell holds its scaling (`k0_pay3`). This is an induction over the
  points, not an enumeration of them. The block the window hands the body at point `t` reads the matrix at
  `(8000 t + q, d)`: on each axis a block's element sits at block index × block size + its own coordinate, and the
  window's block index at point `t` is `(t, 0)`.
-/
import proofs.«164021_j55817394979270_2_alg».proof.Proof.Pieces
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F] [Named F]
variable (m : (ℓ : Loc nD τ sig) → Buf (Elt F) ℓ)

/-- The running sum in the scratch cell after point `n`. -/
def sumAt (c : Dev nD) : (n : ℕ) → n < cfg0.N → Vec F S1x1 .f32
  | 0, h => k0_pay2 (iblk m c 0 ⟨0, h⟩) k0_pay1
  | n + 1, h => k0_pay2 (iblk m c 0 ⟨n + 1, h⟩) (sumAt c n (Nat.lt_of_succ_lt h))

theorem sumAt_zero (c : Dev nD) (h : 0 < cfg0.N) : sumAt m c 0 h = k0_pay2 (iblk m c 0 ⟨0, h⟩) k0_pay1 := rfl

theorem sumAt_succ (c : Dev nD) (n : ℕ) (h : n + 1 < cfg0.N) :
    sumAt m c (n + 1) h = k0_pay2 (iblk m c 0 ⟨n + 1, h⟩) (sumAt m c n (Nat.lt_of_succ_lt h)) := rfl

/-- After point `n` the output cell holds the scaled running sum and the scratch cell the running sum. -/
theorem outsAt_eq (c : Dev nD) : ∀ (n : ℕ) (h : n < cfg0.N),
    outsAt0 m c n h = (k0_pay3 (sumAt m c n h), sumAt m c n h)
  | 0, h => (outsAt0_A m c ⟨0, h⟩ rfl).trans (Prod.ext
      (out_A c (grid0.coords ⟨0, h⟩) (ms0_0 ⟨0, h⟩) (hs0_0 ⟨0, h⟩) (ms0_1 ⟨0, h⟩) (hs0_1 ⟨0, h⟩) scM0_0
        (Memref.isWhole_whole _) ((hcond0_0 ⟨0, h⟩).mpr (Nat.zero_mod _)) (iblk m c 0 ⟨0, h⟩))
      (sout_A c (grid0.coords ⟨0, h⟩) (ms0_0 ⟨0, h⟩) (hs0_0 ⟨0, h⟩) (ms0_1 ⟨0, h⟩) (hs0_1 ⟨0, h⟩) scM0_0
        (Memref.isWhole_whole _) ((hcond0_0 ⟨0, h⟩).mpr (Nat.zero_mod _)) (iblk m c 0 ⟨0, h⟩)))
  | n + 1, h => by
    have hN : cfg0.N = 500 := N_0
    have hB : ¬(⟨n + 1, h⟩ : Fin cfg0.N).val % 500 = 0 := by dsimp only; omega
    rw [outsAt0_B m c ⟨n + 1, h⟩ hB, out_B, sout_B]
    show (k0_pay3 (k0_pay2 _ (outsAt0 m c n _).2), k0_pay2 _ (outsAt0 m c n _).2) = _
    rw [outsAt_eq c n, sumAt_succ]

/-! ## The windows' block indices, decided once over the grid -/

/-- The input window's block index at point `t` is `(t, 0)`. -/
theorem in_idx : ∀ t : Fin cfg0.N, win0_0.index t 0 = t.val ∧ win0_0.index t 1 = 0 :=
  (by decide +kernel : ∀ t : Fin grid0.N, win0_0.index t 0 = t.val ∧ win0_0.index t 1 = 0)

/-- The output window's block index is `(0, 0)` at every point, and its block is the whole one-by-one array. -/
theorem out_idx : ∀ t : Fin cfg0.N, (win0_1.index t 0 = 0 ∧ win0_1.index t 1 = 0)
    ∧ (win0_1.xsize (grid0.coords t) 0 = 1 ∧ win0_1.xsize (grid0.coords t) 1 = 1) :=
  (by decide +kernel : ∀ t : Fin grid0.N, (win0_1.index t 0 = 0 ∧ win0_1.index t 1 = 0)
    ∧ (win0_1.xsize (grid0.coords t) 0 = 1 ∧ win0_1.xsize (grid0.coords t) 1 = 1))

/-- The block at point `t` reads the matrix at rows `8000 t + q`. -/
theorem iblk_apply (c : Dev nD) (t : Fin cfg0.N) (q : Fin 8000) (d : Fin 16) (hq : 8000 * t.val + q.val < 4000000) :
    (iblk m c 0 t : Vec F S8000x16 .f32) (ix2 q d)
      = m ((c : Thread nD τ).loc main_arg0) (ix2 ⟨8000 * t.val + q.val, hq⟩ d) := by
  unfold iblk
  rw [View.read_apply]
  show V m c main_arg0 _ = m (c.tc.loc main_arg0) _
  unfold V
  congr 1
  funext a
  apply Fin.ext
  match a with
  | ⟨0, _⟩ => show win0_0.index t 0 * 8000 + 1 * q.val = 8000 * t.val + q.val; rw [(in_idx t).1]; omega
  | ⟨1, _⟩ => show win0_0.index t 1 * 16 + 1 * d.val = d.val; rw [(in_idx t).2]; omega

end Cert.KernelIdeal.Acc

end
-- ==== Proof.Pay.lean ====
/-
  The body's arithmetic on the extended reals, read at an index.

  The body squares a block of 8000 rows of 16, sums each row (its squared length), takes the square root, spreads it along
  the row, divides the block by it, subtracts the block, squares, sums each row again and then sums the 8000 row sums
  into one cell, which it adds to the running sum. Read at the ideal instance, where a sum along an axis is a finite sum
  of extended reals and a change of layout only moves an index, the value added is `Cert.Loss.blockSum` of the block:
  `k0_pay2 x xs = xs + blockSum x`. The zero the first point stores is `0` (`k0_pay1`), and the scaling the output
  cell gets is the product with the named constant, the real 1/64,000,000 (`k0_pay3`).
-/
import proofs.«164021_j55817394979270_2_alg».proof.Proof.Gen.KernelIdeal.Skeleton
import proofs.«164021_j55817394979270_2_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx

/-! ## One operation at a time, at an index -/

/-- A sum along each row of a block, at row `r`: the sum of the row's 16 entries. -/
theorem rowsum_apply (v : FVec Ideal S8000x16 .f32) (r : Fin 8000) :
    multiReduction .add [1] S8000 v 0x00000000#32 reduces_S8000x16_S8000 (.inl rfl) rfl (ix1 r)
      = ∑ k : Fin 16, v (ix2 r k) := by
  refine (Ideal.multiReduction_add_single v 0x00000000#32 reduces_S8000x16_S8000 (.inl rfl) rfl (ix1 r)).trans ?_
  exact Finset.sum_congr rfl fun k _ =>
    congrArg v (funext fun a => Fin.ext (by match a with | ⟨0, _⟩ => rfl | ⟨1, _⟩ => rfl))

/-- A sum down a one-column matrix: the sum of its 8000 entries. -/
theorem colsum_apply (v : FVec Ideal S8000x1 .f32) (j : S1.Idx) :
    multiReduction .add [0] S1 v 0x00000000#32 reduces_S8000x1_S1 (.inl rfl) rfl j
      = ∑ q : Fin 8000, v (ix2 q (0 : Fin 1)) := by
  refine (Ideal.multiReduction_add_single v 0x00000000#32 reduces_S8000x1_S1 (.inl rfl) rfl j).trans ?_
  refine Finset.sum_congr rfl fun q _ => congrArg v (funext fun a => Fin.ext ?_)
  match a with
  | ⟨0, _⟩ => rfl
  | ⟨1, _⟩ =>
    show (j 0).val = 0
    have h : (j 0).val < 1 := (j 0).isLt
    omega

/-- A vector of 8000 viewed as a column: its entry `(r, 0)` is the vector's entry `r`. -/
theorem column_apply {α : Type} (v : S8000.Idx → α) (r : Fin 8000) :
    shapeCast S8000x1 v shapeCasts_S8000_S8000x1 (ix2 r (0 : Fin 1)) = v (ix1 r) :=
  shapeCast_apply v shapeCasts_S8000_S8000x1 (ix2 r (0 : Fin 1)) (ix1 r) (by
    rw [Shape.rowMajor_val_one, Shape.rowMajor_val_two]
    show r.val = r.val * 1 + 0
    omega)

/-- A one-element vector viewed as a one-by-one matrix: its one entry. -/
theorem cell_apply {α : Type} (v : S1.Idx → α) (i : S1x1.Idx) :
    shapeCast S1x1 v shapeCasts_S1_S1x1 i = v (ix1 (0 : Fin 1)) :=
  shapeCast_apply v shapeCasts_S1_S1x1 i (ix1 (0 : Fin 1)) (by
    rw [Shape.rowMajor_val_one, Shape.rowMajor_val_two]
    have h0 : (i 0).val < 1 := (i 0).isLt
    have h1 : (i 1).val < 1 := (i 1).isLt
    show 0 = (i 0).val * 1 + (i 1).val
    omega)

/-- A column spread along the rows: entry `(r, d)` is the column's entry `(r, 0)`. -/
theorem spread_apply {α : Type} (v : S8000x1.Idx → α) (r : Fin 8000) (d : Fin 16) :
    broadcastTo S8000x16 v broadcasts_S8000x1_S8000x16 (ix2 r d) = v (ix2 r (0 : Fin 1)) :=
  broadcastTo_apply v broadcasts_S8000x1_S8000x16 (ix2 r d) (ix2 r (0 : Fin 1)) (fun a => match a with
    | ⟨0, _⟩ => by show r.val = if (8000 : Nat) = 1 then 0 else r.val; rw [if_neg (by decide)]
    | ⟨1, _⟩ => by show 0 = if (1 : Nat) = 1 then 0 else d.val; rw [if_pos rfl])

/-! ## The block's stages -/

/-- Each row's length, at every entry of the row. -/
def lengths (x : FVec Ideal S8000x16 .f32) : FVec Ideal S8000x16 .f32 :=
  broadcastTo S8000x16
    (sqrt (shapeCast S8000x1
      (multiReduction .add [1] S8000 (mulf x x) 0x00000000#32 reduces_S8000x16_S8000 (.inl rfl) rfl)
      shapeCasts_S8000_S8000x1))
    broadcasts_S8000x1_S8000x16

/-- The squared entries of the projection minus the block. -/
def sqdiff (x : FVec Ideal S8000x16 .f32) : FVec Ideal S8000x16 .f32 :=
  mulf (subf (divf x (lengths x)) x) (subf (divf x (lengths x)) x)

/-- Their sum over the block, in one cell. -/
def blockTotal (x : FVec Ideal S8000x16 .f32) : FVec Ideal S1x1 .f32 :=
  shapeCast S1x1
    (multiReduction .add [0] S1
      (shapeCast S8000x1
        (multiReduction .add [1] S8000 (sqdiff x) 0x00000000#32 reduces_S8000x16_S8000 (.inl rfl) rfl)
        shapeCasts_S8000_S8000x1)
      0x00000000#32 reduces_S8000x1_S1 (.inl rfl) rfl)
    shapeCasts_S1_S1x1

/-- At `(r, d)` the length is the square root of row `r`'s squared length. -/
theorem lengths_apply (x : FVec Ideal S8000x16 .f32) (r : Fin 8000) (d : Fin 16) :
    lengths x (ix2 r d) = Ideal.sqrt (Cert.Loss.rowSq x r) := by
  unfold lengths
  refine (spread_apply _ r d).trans ?_
  show Ideal.sqrt (shapeCast S8000x1 _ shapeCasts_S8000_S8000x1 (ix2 r (0 : Fin 1))) = _
  refine congrArg Ideal.sqrt ((column_apply _ r).trans ((rowsum_apply _ r).trans ?_))
  rfl

/-- At `(r, d)` the squared entry is `(y / ‖y_r‖ − y)²`. -/
theorem sqdiff_apply (x : FVec Ideal S8000x16 .f32) (r : Fin 8000) (d : Fin 16) :
    sqdiff x (ix2 r d) = Cert.Loss.dev x r d * Cert.Loss.dev x r d := by
  show (Ideal.div (x (ix2 r d)) (lengths x (ix2 r d)) - x (ix2 r d))
      * (Ideal.div (x (ix2 r d)) (lengths x (ix2 r d)) - x (ix2 r d)) = _
  rw [lengths_apply]
  rfl

/-- The cell holds the block's sum of squared distances. -/
theorem blockTotal_apply (x : FVec Ideal S8000x16 .f32) (i : S1x1.Idx) :
    blockTotal x i = Cert.Loss.blockSum x := by
  unfold blockTotal
  refine (cell_apply _ i).trans ((colsum_apply _ _).trans ?_)
  refine Finset.sum_congr rfl fun q _ => (column_apply _ q).trans ((rowsum_apply _ q).trans ?_)
  exact Finset.sum_congr rfl fun d _ => sqdiff_apply x q d

/-! ## The three stored values -/

/-- The zero the first point stores is `0`. -/
theorem pay1_apply (i : S1x1.Idx) : k0_pay1 (F := Ideal) i = 0 := by
  have e : k0_pay1 (F := Ideal)
      = shapeCast S1x1 (broadcast S1x1 (Scalar.ofBits (F := Ideal) .f32 0x00000000#32)) shapeCasts_S1x1_S1x1 := rfl
  rw [e, shapeCast_self]
  exact Ideal.ofBits_zero_f32

/-- The new running sum is the old one plus the block's sum. -/
theorem pay2_apply (x : FVec Ideal S8000x16 .f32) (xs : FVec Ideal S1x1 .f32) (i : S1x1.Idx) :
    k0_pay2 (F := Ideal) x xs i = xs i + Cert.Loss.blockSum x := by
  have e : k0_pay2 (F := Ideal) x xs = shapeCast S1x1 (addf xs (blockTotal x)) shapeCasts_S1x1_S1x1 := rfl
  rw [e, shapeCast_self]
  show xs i + blockTotal x i = _
  rw [blockTotal_apply]

/-- The output cell holds the running sum times the named constant: the real 1/64,000,000. -/
theorem pay3_apply (v : FVec Ideal S1x1 .f32) (i : S1x1.Idx) :
    k0_pay3 (F := Ideal) v i = v i * ((1 / 64000000 : ℝ) : EReal) := by
  show v i * Named.named (F := Ideal) κ "inv_64000000" (φ := .f32) 0x328637BD#32 = _
  rw [IdealRules.named_const.ideal_named_scalar κ "inv_64000000" _ _ rfl]

end Cert.KernelIdeal.Pay

end
-- ==== Proof.Running.lean ====
/-
  On the extended reals the running sum after point `n` is the sum over the first `8000 (n + 1)` rows.

  Each point adds its block's sum of squared distances to what the point before left (`Pay.pay2_apply`); the first adds
  it to zero. The block at point `t` reads rows `8000 t … 8000 t + 7999` of the matrix (`iblk_apply`), so its sum is
  those rows' terms (`Cert.Loss.blockSum_block`), and the sums over consecutive blocks of rows join into the sum over
  an initial stretch of rows (`Cert.Loss.upTo_zero`, `upTo_succ`). By induction on the point.
-/
import proofs.«164021_j55817394979270_2_alg».proof.Proof.Chain
import proofs.«164021_j55817394979270_2_alg».proof.Proof.Pay

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The block at point `t` sums the terms of rows `8000 t + q`. -/
theorem blockSum_iblk (c : Dev nD) (t : ℕ) (h : t < cfg0.N) :
    Cert.Loss.blockSum (iblk m c 0 ⟨t, h⟩ : Vec Ideal S8000x16 .f32)
      = ∑ q : Fin 8000, Cert.Loss.rowTerm (m ((c : Thread nD τ).loc main_arg0)) (8000 * t + q.val) :=
  Cert.Loss.blockSum_block (m ((c : Thread nD τ).loc main_arg0)) (iblk m c 0 ⟨t, h⟩ : Vec Ideal S8000x16 .f32) t
    (by have hN : cfg0.N = 500 := N_0; omega) (fun q d => iblk_apply m c ⟨t, h⟩ q d _)

/-- After point `n` the scratch cell holds the squared distances of rows `0 … 8000 (n + 1) − 1`, summed. -/
theorem sumAt_apply (c : Dev nD) : ∀ (n : ℕ) (h : n < cfg0.N) (i : S1x1.Idx),
    sumAt m c n h i = Cert.Loss.upTo (m ((c : Thread nD τ).loc main_arg0)) n
  | 0, h, i => by
    refine (Pay.pay2_apply (iblk m c 0 ⟨0, h⟩ : Vec Ideal S8000x16 .f32) k0_pay1 i).trans ?_
    rw [Pay.pay1_apply, zero_add, blockSum_iblk, Cert.Loss.upTo_zero]
  | n + 1, h, i => by
    refine (Pay.pay2_apply (iblk m c 0 ⟨n + 1, h⟩ : Vec Ideal S8000x16 .f32)
      (sumAt m c n (Nat.lt_of_succ_lt h)) i).trans ?_
    rw [sumAt_apply c n, blockSum_iblk, Cert.Loss.upTo_succ]

end Cert.KernelIdeal.Acc

end
-- ==== Proof.Result.lean ====
/-
  What the program returns.

  The output window's block is the whole one-by-one result array, at every point, and it is written back once, after the
  last of the 500 points: the array then holds the scaled running sum after point 499 (`cell`). The three operations
  after the region view that cell as a scalar and multiply it by the weight `1.0` (`weighted`). So every weakly fair
  execution ends with the result at `weighted (cell …)` and both arguments unchanged (`run`); nothing here depends on the
  float instance.
-/
import proofs.«164021_j55817394979270_2_alg».proof.Proof.Chain
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F] [Named F]
variable (m : (ℓ : Loc nD τ sig) → Buf (Elt F) ℓ) (ρ : Dev nD → PrngReg)

/-- Point 499 is a point of the grid. -/
theorem last_lt : 499 < cfg0.N := by rw [show cfg0.N = 500 from N_0]; decide

/-- The result array after the region: the scaled running sum after the last point. -/
abbrev cell (c : Dev nD) : Buf (Elt F) ((c : Thread nD τ).loc main_v0) := k0_pay3 (sumAt m c 499 last_lt)

/-- The operations after the region: the cell viewed as a scalar, times the weight `1.0`. -/
def weighted (v : Vec F S1x1 .f32) : Vec F S_ .f32 :=
  mulf (shapeCast S_ v shapeCasts_S1x1_S_) (constant (F := F) S_ .f32 0x3F800000#32)

/-- The one write-back, after point 499, writes the cell: the block is the whole array, read through zero offsets. -/
theorem flushed_eq (c : Dev nD) (t : Fin cfg0.N) (hf : (cfg0.win 1).flush t = true) :
    (dats m 0 c).flushed 1 t = ((cfg0.win 1).blk t).view.read (Elt F) (cell m c) := by
  have hN : cfg0.N = 500 := N_0
  have h3 : t.val = 499 := by have := (flush0_1 t).mp hf; have := t.isLt; omega
  obtain ⟨n, hn⟩ := t
  dsimp only at h3
  subst h3
  show (cfg0.win 1).cut (grid0.coords ⟨499, hn⟩) ((dats m 0 c).after 1 ⟨499, hn⟩) = _
  rw [after0_1, outsAt_eq]
  have hz' : (fun a => win0_1.index ⟨499, hn⟩ a * main_v0.ty.shape.size a) = fun _ => 0 := funext fun a => by
    match a with
    | ⟨0, _⟩ => show win0_1.index ⟨499, hn⟩ 0 * _ = 0; rw [(out_idx ⟨499, hn⟩).1.1, Nat.zero_mul]
    | ⟨1, _⟩ => show win0_1.index ⟨499, hn⟩ 1 * _ = 0; rw [(out_idx ⟨499, hn⟩).1.2, Nat.zero_mul]
  exact (Memref.read_access_unit_zero (Elt F) main_v0 hz' (fun a => by rw [congrFun hz' a]; simp) (cell m c)).symm

/-- So the result array ends holding the cell: the last point's block covers its one index. -/
theorem final_cell (c : Dev nD) : (dats m 0 c).arrAt 1 cfg0.N = cell m c :=
  (dats m 0 c).arrAt_eq_of_cover 1 (cell m c) (flushed_eq m c) fun i =>
    ⟨⟨499, last_lt⟩, (flush0_1 ⟨499, last_lt⟩).mpr rfl, by
      show i ∈ ((View.whole main_v0).slice (win0_1.rect ⟨499, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index ⟨499, last_lt⟩ 0 * win0_1.size 0 ≤ (i 0 : Nat)
          ∧ (i 0 : Nat) < win0_1.index ⟨499, last_lt⟩ 0 * win0_1.size 0 + win0_1.xsize (grid0.coords ⟨499, last_lt⟩) 0
        rw [(out_idx ⟨499, last_lt⟩).1.1, (out_idx ⟨499, last_lt⟩).2.1]; omega
      | ⟨1, _⟩ =>
        show win0_1.index ⟨499, last_lt⟩ 1 * win0_1.size 1 ≤ (i 1 : Nat)
          ∧ (i 1 : Nat) < win0_1.index ⟨499, last_lt⟩ 1 * win0_1.size 1 + win0_1.xsize (grid0.coords ⟨499, last_lt⟩) 1
        rw [(out_idx ⟨499, last_lt⟩).1.2, (out_idx ⟨499, last_lt⟩).2.2]; omega⟩

/-- The operations after the region leave the result at the weighted cell. -/
theorem tail_eq (c : Dev nD) :
    Pipeline.afterTail₀ cfgs (dats m) 0 (V0 m) [hostOps1] c main_v2 = weighted (cell m c) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0) = cell m c :=
    (Pipeline.withArrays_arr spec0 launch0.win.arr_inj c _ _ 1).trans (final_cell m c)
  rw [e]
  rfl

/-- The run, read: the result at the weighted cell, both arguments unchanged. -/
theorem run : θ_run defs (onTc (τ := τ) (main (F := F))) ⟨m, fun _ => 0, ρ⟩ fun r => ∀ c : Dev nD,
      r.2.mem ((c : Thread nD τ).loc main_v2) = weighted (cell m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans
          (W_main_arg1 m (dats m) c)⟩)
    (run_main m ρ)

end Cert.KernelIdeal.Acc

end
-- ==== Proof.KernelLoss.lean ====
/-
  On the extended reals the program's result is the loss of its first argument.

  The result is the weight `1.0` times the cell; the cell is the running sum after the last point times the real
  1/64,000,000 (`Pay.pay3_apply`); the running sum after point 499 is the sum over the first 8000 · 500 rows
  (`sumAt_apply`), which are all 4,000,000 of them (`Cert.Loss.upTo_last`).
-/
import proofs.«164021_j55817394979270_2_alg».proof.Proof.Running
import proofs.«164021_j55817394979270_2_alg».proof.Proof.Result

noncomputable section

open Idealize.ShloMosaic Idealize.ShloMosaic.TcCoe Idealize.SL.Sem Idealize.ShloMosaic.ValueIdx

namespace Cert.KernelIdeal.Acc

open Cert.KernelIdeal Cert.KernelIdeal.Gen

/-- A one-by-one matrix viewed as a scalar: its one entry. -/
theorem scalar_apply {α : Type} (v : S1x1.Idx → α) (j : S_.Idx) :
    shapeCast S_ v shapeCasts_S1x1_S_ j = v (ix2 (0 : Fin 1) (0 : Fin 1)) :=
  shapeCast_apply v shapeCasts_S1x1_S_ j (ix2 (0 : Fin 1) (0 : Fin 1)) (by
    rw [Shape.rowMajor_val_two]
    exact (Shape.rowMajorPi_zero _ _).symm)

/-- The weighted cell at its one index: the cell's entry times the weight. -/
theorem weighted_apply (v : FVec Ideal S1x1 .f32) (j : S_.Idx) :
    weighted (F := Ideal) v j = v (ix2 (0 : Fin 1) (0 : Fin 1)) * Ideal.ofBits .f32 0x3F800000#32 := by
  show shapeCast S_ v shapeCasts_S1x1_S_ j * Ideal.ofBits .f32 0x3F800000#32 = _
  rw [scalar_apply]

/-- The cell's entry: the sum over all rows times the real 1/64,000,000. -/
theorem cell_apply (m : (ℓ : Loc nD τ sig) → Buf (Elt Ideal) ℓ) (c : Dev nD) (i : S1x1.Idx) :
    (cell m c : FVec Ideal S1x1 .f32) i
      = Cert.Loss.total (m ((c : Thread nD τ).loc main_arg0)) * ((1 / 64000000 : ℝ) : EReal) := by
  refine (Pay.pay3_apply (sumAt m c 499 last_lt) i).trans ?_
  rw [sumAt_apply, Cert.Loss.upTo_last]

/-- The weighted cell, on the extended reals, is the loss of the matrix. -/
theorem weighted_cell (m : (ℓ : Loc nD τ sig) → Buf (Elt Ideal) ℓ) (c : Dev nD) :
    weighted (cell m c) = fun _ => Cert.Loss.loss (m ((c : Thread nD τ).loc main_arg0)) := by
  funext j
  refine (weighted_apply (cell m c) j).trans ?_
  rw [cell_apply]
  rfl

end Cert.KernelIdeal.Acc

end
-- ==== Proof.lean ====
/-
  Both programs compute one loss: the mean, over the 64,000,000 entries of a 4,000,000 × 16 matrix `y`, of the squared
  entries of `y_r / ‖y_r‖ − y_r` (each row's projection onto the unit sphere, minus the row), times the weight `1.0`;
  the second argument is never read.

  The kernel walks the matrix 8000 rows at a time over a grid of 500 points. Each point squares its block, sums each row,
  takes the square root, divides the block by it, subtracts the block, squares, sums the rows and then the 8000 row sums,
  and adds the result to a running sum kept in a scratch cell (zeroed at the first point); it writes the running sum
  times the constant 1/64,000,000 into the one-by-one output, which is written back after the last point. Three host
  operations then view that cell as a scalar and multiply by `1.0`. The reference takes the rows' norms, divides,
  subtracts, squares, sums every entry at once from zero, divides by 64,000,000 and multiplies by `1.0`.

  On the extended reals these are one function (`Cert.Loss.loss`, Proof/Spec.lean): the entries are the same expression
  on both sides; addition is commutative and associative, so the sum block by block is the sum over all entries; and the
  quotient of an extended real by the real 64,000,000 is its product with the real 1/64,000,000 — which is what the
  kernel's constant denotes, by the table of named constants. No step uses that the entries are finite.

  Proof/Pieces.lean, Chain.lean, Result.lean read the kernel's run: what each point leaves, by induction over the
  points, and what the program returns. Proof/Pay.lean and Running.lean evaluate that on the extended reals;
  Proof/KernelLoss.lean and RefLoss.lean identify each program's result with `Cert.Loss.loss`. The three frames are the
  runs with the result dropped; the one rewrite of the idealization is the named constant.
-/
import proofs.«164021_j55817394979270_2_alg».proof.Defs
import proofs.«164021_j55817394979270_2_alg».proof.Proof.Gen.Kernel
import proofs.«164021_j55817394979270_2_alg».proof.Proof.Gen.Kernel.Skeleton
import proofs.«164021_j55817394979270_2_alg».proof.Proof.Gen.Kernel.Launch
import proofs.«164021_j55817394979270_2_alg».proof.Proof.Gen.Kernel.Points
import proofs.«164021_j55817394979270_2_alg».proof.Proof.Gen.Kernel.Frame
import proofs.«164021_j55817394979270_2_alg».proof.Proof.Gen.KernelIdeal
import proofs.«164021_j55817394979270_2_alg».proof.Proof.Gen.KernelIdeal.Skeleton
import proofs.«164021_j55817394979270_2_alg».proof.Proof.Gen.KernelIdeal.Launch
import proofs.«164021_j55817394979270_2_alg».proof.Proof.Gen.KernelIdeal.Points
import proofs.«164021_j55817394979270_2_alg».proof.Proof.Gen.KernelIdeal.Frame
import proofs.«164021_j55817394979270_2_alg».proof.Proof.Gen.ReferenceIdeal
import proofs.«164021_j55817394979270_2_alg».proof.Proof.Gen.Pre_finite_inputs
import proofs.«164021_j55817394979270_2_alg».proof.Proof.Gen.ReferenceIdeal.Run
import proofs.«164021_j55817394979270_2_alg».proof.Proof.Gen.ReferenceIdeal.Read
import proofs.«164021_j55817394979270_2_alg».proof.Proof.RefLoss
import proofs.«164021_j55817394979270_2_alg».proof.Proof.KernelLoss
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the table of named constants gives `"inv_64000000"` the real 1/64,000,000, and
    the printed constant is that value on the extended reals. -/
theorem preserves : Cert.preserves_Kernel_KernelIdeal :=
  IdealRules.named_const.statement Cert.KernelIdeal.κ "inv_64000000" .f32 0x328637BD#32
    ((1 / 64000000 : ℝ) : EReal) rfl

/-- From memories that agree on the arguments both programs end at the loss of the first argument. -/
theorem algebraic : Cert.algebraic_KernelIdeal_ReferenceIdeal := by
  intro m ρ m' ρ' _ hagree
  refine ⟨fun c => fun _ => Cert.Loss.loss
    (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Acc.weighted_cell m c), (h c).2⟩)
      (Cert.KernelIdeal.Acc.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.ReferenceIdeal.RefLoss.result_eq, (hagree c).1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
